-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x88 : Shape := ⟨3, ![128, 2048, 88]⟩
abbrev S128x2048 : Shape := ⟨2, ![128, 2048]⟩
abbrev S_ : Shape := ⟨0, ![]⟩

class Facts : Prop where
  bcast_S_S128x2048x88 : S_.BroadcastsInDim S128x2048x88 (![] : Fin 0 → Fin S128x2048x88.rank)
  reducesTo_S128x2048x88_S_d0_1_2 : S128x2048x88.ReducesTo [0, 1, 2] S_
  h_S_ : 0 < S_.numel

variable [Facts]

def fn {F : FTy → Type} [FloatOps F] (main_arg0 : FVec F S128x2048x88 .f32) (main_arg1 : FVec F S128x2048x88 .f32) (main_arg2 : IVec S128x2048 32) : IVec S_ 1 :=
  let main_v0 : FVec F S128x2048x88 .f32 := Host.absf main_arg0
  let main_cst : FVec F S_ .f32 := constant S_ .f32 0x7F800000#32
  let main_v1 : FVec F S128x2048x88 .f32 := broadcastInDim S128x2048x88 ![] bcast_S_S128x2048x88 main_cst
  let main_v2 : IVec S128x2048x88 1 := cmpf .olt main_v0 main_v1
  let main_c : IVec S_ 1 := constantI S_ 1 1#1
  let main_v3 : IVec S_ 1 := (fun x v => Host.reduce IntOp.andi x v reducesTo_S128x2048x88_S_d0_1_2 h_S_) main_v2 main_c
  let main_v4 : FVec F S128x2048x88 .f32 := Host.absf main_arg1
  let main_cst_0 : FVec F S_ .f32 := constant S_ .f32 0x7F800000#32
  let main_v5 : FVec F S128x2048x88 .f32 := broadcastInDim S128x2048x88 ![] bcast_S_S128x2048x88 main_cst_0
  let main_v6 : IVec S128x2048x88 1 := cmpf .olt main_v4 main_v5
  let main_c_1 : IVec S_ 1 := constantI S_ 1 1#1
  let main_v7 : IVec S_ 1 := (fun x v => Host.reduce IntOp.andi x v reducesTo_S128x2048x88_S_d0_1_2 h_S_) main_v6 main_c_1
  let main_v8 : IVec S_ 1 := andi main_v3 main_v7
  main_v8
-- ==== Kernel.lean ====
abbrev S128x2048x88 : Shape := ⟨3, ![128, 2048, 88]⟩
abbrev S128x2048 : Shape := ⟨2, ![128, 2048]⟩
abbrev S128x1 : Shape := ⟨2, ![128, 1]⟩
abbrev S64x256x88 : Shape := ⟨3, ![64, 256, 88]⟩
abbrev S64x1 : Shape := ⟨2, ![64, 1]⟩
abbrev S64x256 : Shape := ⟨2, ![64, 256]⟩
abbrev S64 : Shape := ⟨1, ![64]⟩
abbrev S_ : Shape := ⟨0, ![]⟩
abbrev S128 : Shape := ⟨1, ![128]⟩
abbrev S2048 : Shape := ⟨1, ![2048]⟩
abbrev S1x2048 : Shape := ⟨2, ![1, 2048]⟩

abbrev nBuf : Space → Nat
  | .hbm => 19
  | .vmem => 16
  | .smem => 0
  | _ => 0

abbrev bufTy : (tb : Table) → Fin (tcTables nBuf tb) → BufTy
  | .hbm, ⟨0, _⟩ => ⟨S128x2048x88, .f32⟩
  | .hbm, ⟨1, _⟩ => ⟨S128x2048x88, .f32⟩
  | .hbm, ⟨2, _⟩ => ⟨S128x2048, .i32⟩
  | .hbm, ⟨3, _⟩ => ⟨S128x1, .f32⟩
  | .hbm, ⟨4, _⟩ => ⟨S_, .i32⟩
  | .hbm, ⟨5, _⟩ => ⟨S128, .i32⟩
  | .hbm, ⟨6, _⟩ => ⟨S2048, .i32⟩
  | .hbm, ⟨7, _⟩ => ⟨S1x2048, .i32⟩
  | .hbm, ⟨8, _⟩ => ⟨S128x1, .i32⟩
  | .hbm, ⟨9, _⟩ => ⟨S128x2048, .i32⟩
  | .hbm, ⟨10, _⟩ => ⟨S128x2048, .i32⟩
  | .hbm, ⟨11, _⟩ => ⟨S128x2048, .i1⟩
  | .hbm, ⟨12, _⟩ => ⟨S128x2048, .f32⟩
  | .hbm, ⟨13, _⟩ => ⟨S128x1, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .local _ .vmem, ⟨0, _⟩ => ⟨S64x256x88, .f32⟩
  | .local _ .vmem, ⟨1, _⟩ => ⟨S64x256x88, .f32⟩
  | .local _ .vmem, ⟨2, _⟩ => ⟨S64x256x88, .f32⟩
  | .local _ .vmem, ⟨3, _⟩ => ⟨S64x256x88, .f32⟩
  | .local _ .vmem, ⟨4, _⟩ => ⟨S64x1, .f32⟩
  | .local _ .vmem, ⟨5, _⟩ => ⟨S64x1, .f32⟩
  | .local _ .vmem, ⟨6, _⟩ => ⟨S64x256x88, .f32⟩
  | .local _ .vmem, ⟨7, _⟩ => ⟨S64x256x88, .f32⟩
  | .local _ .vmem, ⟨8, _⟩ => ⟨S64x256x88, .f32⟩
  | .local _ .vmem, ⟨9, _⟩ => ⟨S64x256x88, .f32⟩
  | .local _ .vmem, ⟨10, _⟩ => ⟨S64x1, .f32⟩
  | .local _ .vmem, ⟨11, _⟩ => ⟨S64x1, .f32⟩
  | .local _ .vmem, ⟨12, _⟩ => ⟨S64x256, .f32⟩
  | .local _ .vmem, ⟨13, _⟩ => ⟨S64x256, .f32⟩
  | .local _ .vmem, ⟨14, _⟩ => ⟨S64x1, .f32⟩
  | .local _ .vmem, ⟨15, _⟩ => ⟨S64x1, .f32⟩
  | _, _ => ⟨S128x2048x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x256x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256x88 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x256x88 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x256x88 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S64x1_S64x1_0_0 : ∀ a, (![0, 0] : Fin 2 → Nat) a + S64x1.size a ≤ S64x1.size a
  h_S64x1 : 0 < S64x1.numel
  inb_S64x256x88_S64x256x88_0_0_0 : ∀ a, (![0, 0, 0] : Fin 3 → Nat) a + S64x256x88.size a ≤ S64x256x88.size a
  h_S64x256x88 : 0 < S64x256x88.numel
  natLt_1_32 : 1 < 32
  reduces_S64x256x88_S64x256 : S64x256x88.Reduces [2] S64x256
  reduces_S64x256_S64 : S64x256.Reduces [1] S64
  shapeCasts_S64_S64x1 : S64.ShapeCasts S64x1
  shapeCasts_S64x1_S64x1 : S64x1.ShapeCasts S64x1
  reducesTo_S128x2048_S128_d1 : S128x2048.ReducesTo [1] S128
  h_S_ : 0 < S_.numel
  bcast_S2048_S1x2048_1 : S2048.BroadcastsInDim S1x2048 (![1] : Fin 1 → Fin S1x2048.rank)
  bcast_S128_S128x1_0 : S128.BroadcastsInDim S128x1 (![0] : Fin 1 → Fin S128x1.rank)
  bcast_S1x2048_S128x2048_0_1 : S1x2048.BroadcastsInDim S128x2048 (![0, 1] : Fin 2 → Fin S128x2048.rank)
  bcast_S128x1_S128x2048_0_1 : S128x1.BroadcastsInDim S128x2048 (![0, 1] : Fin 2 → Fin S128x2048.rank)
  broadcasts_S64x1_S64x256 : S64x1.Broadcasts S64x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S128x1_S128 : S128x1.ShapeCasts S128
  reducesTo_S128_S_d0 : S128.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x88.size a ≤ S128x2048x88.size a
  hwx0_0 : ∀ i : grid0.Coords, EltTy.bits .f32 = 32 ∨ (Rect.block (s := S128x2048x88) S64x256x88.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256x88.size a ≤ S128x2048x88.size a
  hwx0_1 : ∀ i : grid0.Coords, EltTy.bits .f32 = 32 ∨ (Rect.block (s := S128x2048x88) S64x256x88.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S128x1.size a
  hwx0_2 : ∀ i : grid0.Coords, EltTy.bits .f32 = 32 ∨ (Rect.block (s := S128x1) S64x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256x88.size a ≤ S128x2048x88.size a
  hwx1_0 : ∀ i : grid1.Coords, EltTy.bits .f32 = 32 ∨ (Rect.block (s := S128x2048x88) S64x256x88.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x256x88.size a ≤ S128x2048x88.size a
  hwx1_1 : ∀ i : grid1.Coords, EltTy.bits .f32 = 32 ∨ (Rect.block (s := S128x2048x88) S64x256x88.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S128x1.size a
  hwx1_2 : ∀ i : grid1.Coords, EltTy.bits .f32 = 32 ∨ (Rect.block (s := S128x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S128x2048.size a
  hwx1_3 : ∀ i : grid1.Coords, EltTy.bits .f32 = 32 ∨ (Rect.block (s := S128x2048) S64x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S128x1.size a
  hwx1_4 : ∀ i : grid1.Coords, EltTy.bits .f32 = 32 ∨ (Rect.block (s := S128x1) S64x1.size (cc1_transform_4 i) (hinb1_4 i)).WholeWords (EltTy.packing .f32)

variable [Facts₀]

abbrev win0_0 : Pipeline.Window sig grid0 :=
  Pipeline.Window.ofSpec (Memref.whole main_arg0) S64x256x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256x88.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S64x256x88.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x256x88.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S64x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x2048x88 : Shape := ⟨3, ![128, 2048, 88]⟩
abbrev S128x2048 : Shape := ⟨2, ![128, 2048]⟩
abbrev S_ : Shape := ⟨0, ![]⟩
abbrev S128 : Shape := ⟨1, ![128]⟩
abbrev S2048 : Shape := ⟨1, ![2048]⟩
abbrev S1x2048 : Shape := ⟨2, ![1, 2048]⟩
abbrev S128x1 : Shape := ⟨2, ![128, 1]⟩

abbrev nBuf : Space → Nat
  | .hbm => 53
  | .vmem => 0
  | .smem => 0
  | _ => 0

abbrev bufTy : (tb : Table) → Fin (tcTables nBuf tb) → BufTy
  | .hbm, ⟨0, _⟩ => ⟨S128x2048x88, .f32⟩
  | .hbm, ⟨1, _⟩ => ⟨S128x2048x88, .f32⟩
  | .hbm, ⟨2, _⟩ => ⟨S128x2048, .i32⟩
  | .hbm, ⟨3, _⟩ => ⟨S128x2048x88, .f32⟩
  | .hbm, ⟨4, _⟩ => ⟨S128x2048x88, .f32⟩
  | .hbm, ⟨5, _⟩ => ⟨S_, .f32⟩
  | .hbm, ⟨6, _⟩ => ⟨S128x2048x88, .f32⟩
  | .hbm, ⟨7, _⟩ => ⟨S128x2048x88, .f32⟩
  | .hbm, ⟨8, _⟩ => ⟨S_, .f32⟩
  | .hbm, ⟨9, _⟩ => ⟨S128x2048x88, .f32⟩
  | .hbm, ⟨10, _⟩ => ⟨S128x2048x88, .f32⟩
  | .hbm, ⟨11, _⟩ => ⟨S_, .f32⟩
  | .hbm, ⟨12, _⟩ => ⟨S128x2048x88, .f32⟩
  | .hbm, ⟨13, _⟩ => ⟨S128x2048x88, .i1⟩
  | .hbm, ⟨14, _⟩ => ⟨S128x2048x88, .f32⟩
  | .hbm, ⟨15, _⟩ => ⟨S128x2048x88, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128x2048x88, .f32⟩
  | .hbm, ⟨20, _⟩ => ⟨S128x2048x88, .f32⟩
  | .hbm, ⟨21, _⟩ => ⟨S128x2048x88, .f32⟩
  | .hbm, ⟨22, _⟩ => ⟨S_, .f32⟩
  | .hbm, ⟨23, _⟩ => ⟨S128x2048, .f32⟩
  | .hbm, ⟨24, _⟩ => ⟨S_, .f32⟩
  | .hbm, ⟨25, _⟩ => ⟨S128x2048x88, .f32⟩
  | .hbm, ⟨26, _⟩ => ⟨S128x2048x88, .f32⟩
  | .hbm, ⟨27, _⟩ => ⟨S128x2048x88, .f32⟩
  | .hbm, ⟨28, _⟩ => ⟨S_, .f32⟩
  | .hbm, ⟨29, _⟩ => ⟨S128x2048, .f32⟩
  | .hbm, ⟨30, _⟩ => ⟨S_, .i32⟩
  | .hbm, ⟨31, _⟩ => ⟨S128, .i32⟩
  | .hbm, ⟨32, _⟩ => ⟨S2048, .i32⟩
  | .hbm, ⟨33, _⟩ => ⟨S1x2048, .i32⟩
  | .hbm, ⟨34, _⟩ => ⟨S128x1, .i32⟩
  | .hbm, ⟨35, _⟩ => ⟨S128x2048, .i32⟩
  | .hbm, ⟨36, _⟩ => ⟨S128x2048, .i32⟩
  | .hbm, ⟨37, _⟩ => ⟨S128x2048, .i1⟩
  | .hbm, ⟨38, _⟩ => ⟨S128x2048, .f32⟩
  | .hbm, ⟨39, _⟩ => ⟨S128x1, .f32⟩
  | .hbm, ⟨40, _⟩ => ⟨S128x1, .f32⟩
  | .hbm, ⟨41, _⟩ => ⟨S128x2048, .f32⟩
  | .hbm, ⟨42, _⟩ => ⟨S128x2048, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S_, .f32⟩
  | _, _ => ⟨S128x2048x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S_S128x2048x88 : S_.BroadcastsInDim S128x2048x88 (![] : Fin 0 → Fin S128x2048x88.rank)
  reducesTo_S128x2048x88_S128_d1_2 : S128x2048x88.ReducesTo [1, 2] S128
  h_S_ : 0 < S_.numel
  reducesTo_S128x2048x88_S128x2048_d2 : S128x2048x88.ReducesTo [2] S128x2048
  reducesTo_S128x2048_S128_d1 : S128x2048.ReducesTo [1] S128
  bcast_S2048_S1x2048_1 : S2048.BroadcastsInDim S1x2048 (![1] : Fin 1 → Fin S1x2048.rank)
  bcast_S128_S128x1_0 : S128.BroadcastsInDim S128x1 (![0] : Fin 1 → Fin S128x1.rank)
  bcast_S1x2048_S128x2048_0_1 : S1x2048.BroadcastsInDim S128x2048 (![0, 1] : Fin 2 → Fin S128x2048.rank)
  bcast_S128x1_S128x2048_0_1 : S128x1.BroadcastsInDim S128x2048 (![0, 1] : Fin 2 → Fin S128x2048.rank)
  reducesTo_S128_S_d0 : S128.ReducesTo [0] S_

variable [Facts₀]

class Facts : Prop extends Facts₀ where

variable [Facts]
-- ==== Proof.TpCases.lean ====
/-
  The first pass, one grid point at a time.

  Grid point (i, j) of the first pass holds rows 64 i .. 64 i + 63 and frames 256 j .. 256 j + 255 of the two arrays.
  Its body adds to a 64-entry column the block's sum over frames and features of pred(x) * y; at j = 0 the column is
  first reset to zero. So after a point the column holds the zero column plus the block's sum (j = 0), or what the
  previous point left plus the block's sum (j > 0).
-/
import proofs.«135681_j77257871721096_2_alg».proof.Proof.Gen.KernelIdeal.Frame
import Idealize.ShloMosaic.Lib.Pipeline.Value
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero column a reset stores. -/
abbrev zeroCol : Vec F S64x1 .f32 := broadcast S64x1 (Scalar.ofBits .f32 0x00000000#32)

/-- One block's contribution to the true positives: per row, the sum over the block's frames and features of the
    thresholded score times the target, as the body computes it. -/
def blockTp (x0 x1 : Vec F S64x256x88 .f32) : FVec F S64x1 .f32 :=
  shapeCast S64x1
    (multiReduction .add [1] S64
      (multiReduction .add [2] S64x256
        (mulf (sitofp .f32 (extui 32 (cmpf .ogt x0 (broadcast S64x256x88 (Scalar.ofBits .f32 0x00000000#32))) natLt_1_32)) x1)
        0x00000000#32 reduces_S64x256x88_S64x256 (.inl rfl) rfl)
      0x00000000#32 reduces_S64x256_S64 (.inl rfl) rfl)
    shapeCasts_S64_S64x1

/-- A point that does not reset: the column `xo` left by the point before, plus the block's sum. -/
theorem tp_out_B (c : Dev nD) (i : grid0.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (hc : ¬cond0_0 i) (x0 x1 : Vec F S64x256x88 .f32) (xo : Vec F S64x1 .f32) :
    out0_B_2 c i a2 h2 a3 h3 a4 h4 hc x0 x1 xo = addf xo (blockTp x0 x1) := by
  unfold out0_B_2
  rw [View.read_writes_eq_canon _ _ _ (cover0_B_2 c i a2 h2 a3 h3 a4 h4 hc x0 x1 xo)]
  unfold kernelRun0_B
  dsimp only
  rw [View.canon_unit_zero hz2]
  unfold k0_pay2 blockTp
  simp only [View.readAt_eq_ld, h2.read_unread, h3.read_unread, h4.read_unread, View.ld_unit_zero (S := S64x256x88) hz3,
    View.ld_unit_zero (S := S64x1) hz2, shapeCast_self]

/-- A point that resets: the zero column plus the block's sum. -/
theorem tp_out_A (c : Dev nD) (i : grid0.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (hc : cond0_0 i) (x0 x1 : Vec F S64x256x88 .f32) :
    out0_A_2 c i a2 h2 a3 h3 a4 h4 hc x0 x1 = addf zeroCol (blockTp x0 x1) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S64x1) hz2, View.readCov_unit_zero (S := S64x1) _ hz2]
  unfold k0_pay2 k0_pay1 blockTp
  simp only [View.readAt_eq_ld, h2.read_unread, h3.read_unread, View.ld_unit_zero (S := S64x256x88) hz3,
    View.ld_unit_zero (S := S64x1) hz2, shapeCast_self]

end Cert.KernelIdeal.KValue

end
-- ==== Proof.AccCases.lean ====
/-
  The second pass, one grid point at a time.

  Grid point (i, j) of the second pass holds rows 64 i .. 64 i + 63 and frames 256 j .. 256 j + 255 of the score
  and target arrays, the 64 true-positive counts of those rows and the 64 x 256 validity weights of those rows
  and frames. Its body adds to a 64-entry column, per row, the sum over the block's frames of
  tp / ((tp + false positives of the frame) + false negatives of the frame) times the frame's weight; at j = 0 the
  column is first reset to zero.
-/
import proofs.«135681_j77257871721096_2_alg».proof.Proof.TpCases

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable {F : FTy → Type} [FloatOps F]

/-- The thresholded scores of a block, as the body computes them: one where the score is above zero. -/
def blockPred (x0 : Vec F S64x256x88 .f32) : FVec F S64x256x88 .f32 :=
  sitofp .f32 (extui 32 (cmpf .ogt x0 (broadcast S64x256x88 (Scalar.ofBits .f32 0x00000000#32))) natLt_1_32)

/-- One block's contribution to the weighted sum of frame scores, per row, as the body computes it from the
    block's scores `x0`, targets `x1`, the rows' true-positive counts `tpb` and the weights `wb`. -/
def blockAcc (x0 x1 : Vec F S64x256x88 .f32) (tpb : Vec F S64x1 .f32) (wb : Vec F S64x256 .f32) : FVec F S64x1 .f32 :=
  shapeCast S64x1
    (multiReduction .add [1] S64
      (mulf
        (divf (broadcastTo S64x256 tpb broadcasts_S64x1_S64x256)
          (addf
            (addf (broadcastTo S64x256 tpb broadcasts_S64x1_S64x256)
              (multiReduction .add [2] S64x256
                (mulf (blockPred x0) (subf (broadcast S64x256x88 (Scalar.ofBits .f32 0x3F800000#32)) x1))
                0x00000000#32 reduces_S64x256x88_S64x256 (.inl rfl) rfl))
            (multiReduction .add [2] S64x256
              (mulf (subf (broadcast S64x256x88 (Scalar.ofBits .f32 0x3F800000#32)) (blockPred x0)) x1)
              0x00000000#32 reduces_S64x256x88_S64x256 (.inl rfl) rfl)))
        wb)
      0x00000000#32 reduces_S64x256_S64 (.inl rfl) rfl)
    shapeCasts_S64_S64x1

/-- A point that does not reset: the column `xo` left by the point before, plus the block's sum. -/
theorem acc_out_B (c : Dev nD) (i : grid1.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (a5 : Memref sig .tc .vmem S64x256 .f32) (h5 : a5.IsWhole) (a6 : Memref sig .tc .vmem S64x1 .f32) (h6 : a6.IsWhole)
    (hc : ¬cond1_0 i) (x0 x1 : Vec F S64x256x88 .f32) (x2 : Vec F S64x1 .f32) (x3 : Vec F S64x256 .f32) (xo : Vec F S64x1 .f32) :
    out1_B_4 c i a2 h2 a3 h3 a4 h4 a5 h5 a6 h6 hc x0 x1 x2 x3 xo = addf xo (blockAcc x0 x1 x2 x3) := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz2]
  unfold k1_pay2 blockAcc blockPred
  simp only [View.readAt_eq_ld, h2.read_unread, h3.read_unread, h4.read_unread, h5.read_unread, h6.read_unread,
    View.ld_unit_zero (S := S64x256x88) hz3, View.ld_unit_zero (S := S64x1) hz2, View.ld_unit_zero (S := S64x256) hz2, shapeCast_self]

/-- A point that resets: the zero column plus the block's sum. -/
theorem acc_out_A (c : Dev nD) (i : grid1.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (a5 : Memref sig .tc .vmem S64x256 .f32) (h5 : a5.IsWhole) (a6 : Memref sig .tc .vmem S64x1 .f32) (h6 : a6.IsWhole)
    (hc : cond1_0 i) (x0 x1 : Vec F S64x256x88 .f32) (x2 : Vec F S64x1 .f32) (x3 : Vec F S64x256 .f32) :
    out1_A_4 c i a2 h2 a3 h3 a4 h4 a5 h5 a6 h6 hc x0 x1 x2 x3 = addf zeroCol (blockAcc x0 x1 x2 x3) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S64x1) hz2, View.readCov_unit_zero (S := S64x1) _ hz2]
  unfold k1_pay2 k1_pay1 blockAcc blockPred
  simp only [View.readAt_eq_ld, h2.read_unread, h3.read_unread, h4.read_unread, h5.read_unread,
    View.ld_unit_zero (S := S64x256x88) hz3, View.ld_unit_zero (S := S64x1) hz2, View.ld_unit_zero (S := S64x256) hz2, shapeCast_self]

end Cert.KernelIdeal.KValue

end
-- ==== Proof.Folds.lean ====
/-
  Both passes as folds over a run of grid points.

  The grid's sixteen points come in two runs of eight: point 8 i + j holds rows 64 i .. 64 i + 63 and frames
  256 j .. 256 j + 255. A pass resets its column at the first point of a run and adds the block's sum at every
  point, so after point 8 i + j the column is the fold over the points 8 i .. 8 i + j: the zero column plus the
  first block's sum, then plus each later block's sum.
-/
import proofs.«135681_j77257871721096_2_alg».proof.Proof.AccCases

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The first pass's addend at point `n`: the sum of the point's block. -/
def tpAdd (c : Dev nD) (n : ℕ) (h : n < cfg0.N) : Vec F S64x1 .f32 :=
  blockTp (iblk0 V c 0 ⟨n, h⟩) (iblk0 V c 1 ⟨n, h⟩)

/-- The second pass's addend at point `n`. -/
def accAdd (c : Dev nD) (n : ℕ) (h : n < cfg1.N) : Vec F S64x1 .f32 :=
  blockAcc (iblk1 V c 0 ⟨n, h⟩) (iblk1 V c 1 ⟨n, h⟩) (iblk1 V c 2 ⟨n, h⟩) (iblk1 V c 3 ⟨n, h⟩)

/-- After point `t` the first pass's column is the fold over the points of `t`'s run up to `t`. -/
theorem outsAt0_fold (c : Dev nD) (t : ℕ) (ht : t < cfg0.N) (h' : 8 * (t / 8) + t % 8 < cfg0.N) :
    outsAt0 V c t ht
      = Pipeline.accAt (fun n h => addf zeroCol (tpAdd V c n h)) (fun n h acc => addf acc (tpAdd V c n h)) (8 * (t / 8)) (t % 8) h' :=
  Pipeline.eq_accAt_of_mod (fun n h => outsAt0 V c n h) 8 _ _
    (fun n h hn => (outsAt0_A V c ⟨n, h⟩ hn).trans (tp_out_A ..))
    (fun n h hn => (outsAt0_B V c ⟨n + 1, h⟩ hn).trans (tp_out_B ..))
    (by decide) t ht h'

/-- After point `t` the second pass's column is the fold over the points of `t`'s run up to `t`. -/
theorem outsAt1_fold (c : Dev nD) (t : ℕ) (ht : t < cfg1.N) (h' : 8 * (t / 8) + t % 8 < cfg1.N) :
    outsAt1 V c t ht
      = Pipeline.accAt (fun n h => addf zeroCol (accAdd V c n h)) (fun n h acc => addf acc (accAdd V c n h)) (8 * (t / 8)) (t % 8) h' :=
  Pipeline.eq_accAt_of_mod (fun n h => outsAt1 V c n h) 8 _ _
    (fun n h hn => (outsAt1_A V c ⟨n, h⟩ hn).trans (acc_out_A ..))
    (fun n h hn => (outsAt1_B V c ⟨n + 1, h⟩ hn).trans (acc_out_B ..))
    (by decide) t ht h'

end Cert.KernelIdeal.KValue

end
-- ==== Proof.BlockReads.lean ====
/-
  Which entries of the arrays a grid point's blocks hold.

  Both passes run over the same 2 x 8 grid. Point 8 q + s (q < 2, s < 8) stages rows 64 q .. 64 q + 63 and frames
  256 s .. 256 s + 255 of the score and target arrays; the second pass also stages the true-positive counts of those
  rows and the validity weights of those rows and frames. Entry (r, t', d) of a staged block is entry
  (64 q + r, 256 s + t', d) of its array: a block's coordinate is always block index times block size plus the
  coordinate inside the block.
-/
import proofs.«135681_j77257871721096_2_alg».proof.Proof.Folds
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- Row `r` of the `q`-th block of 64 rows. -/
abbrev rowOf (q : ℕ) (hq : q < 2) (r : Fin 64) : Fin 128 := ⟨64 * q + r.val, by omega⟩
/-- Frame `t'` of the `s`-th block of 256 frames. -/
abbrev frameOf (s : ℕ) (hs : s < 8) (t' : Fin 256) : Fin 2048 := ⟨256 * s + t'.val, by omega⟩

/-- The first pass's index maps over the grid: point `t` is row block `t / 8`, frame block `t % 8`. -/
theorem idx0 : ∀ t : Fin cfg0.N, win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = 0 :=
  (by decide +kernel : ∀ t : Fin grid0.N, _)

/-- The second pass's index maps over the grid. -/
theorem idx1 : ∀ t : Fin cfg1.N, win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 2) = t.val / 8 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = 0 :=
  (by decide +kernel : ∀ t : Fin grid1.N, _)

/-! ## The first pass's input blocks -/

theorem iblk0_0_apply (c : Dev nD) (q s : ℕ) (hq : q < 2) (hs : s < 8) (h : 8 * q + s < cfg0.N) (r : Fin 64) (t' : Fin 256) (d : Fin 88) :
    iblk0 V c 0 ⟨8 * q + s, h⟩ (ix3 r t' d) = V c main_arg0 (ix3 (rowOf q hq r) (frameOf s hs t') d) := by
  unfold iblk0
  rw [View.read_apply]
  show V c main_arg0 _ = V c main_arg0 _
  refine congrArg _ ?_
  obtain ⟨e0, e1, e2, -⟩ := idx0 ⟨8 * q + s, h⟩
  funext a
  apply Fin.ext
  match a with
  | ⟨0, _⟩ => show win0_0.index ⟨8 * q + s, h⟩ (0 : Fin 3) * 64 + 1 * r.val = 64 * q + r.val; rw [e0]; dsimp only; omega
  | ⟨1, _⟩ => show win0_0.index ⟨8 * q + s, h⟩ (1 : Fin 3) * 256 + 1 * t'.val = 256 * s + t'.val; rw [e1]; dsimp only; omega
  | ⟨2, _⟩ => show win0_0.index ⟨8 * q + s, h⟩ (2 : Fin 3) * 88 + 1 * d.val = d.val; rw [e2]; omega

theorem iblk0_1_apply (c : Dev nD) (q s : ℕ) (hq : q < 2) (hs : s < 8) (h : 8 * q + s < cfg0.N) (r : Fin 64) (t' : Fin 256) (d : Fin 88) :
    iblk0 V c 1 ⟨8 * q + s, h⟩ (ix3 r t' d) = V c main_arg1 (ix3 (rowOf q hq r) (frameOf s hs t') d) := by
  unfold iblk0
  rw [View.read_apply]
  show V c main_arg1 _ = V c main_arg1 _
  refine congrArg _ ?_
  obtain ⟨-, -, -, e0, e1, e2, -⟩ := idx0 ⟨8 * q + s, h⟩
  funext a
  apply Fin.ext
  match a with
  | ⟨0, _⟩ => show win0_1.index ⟨8 * q + s, h⟩ (0 : Fin 3) * 64 + 1 * r.val = 64 * q + r.val; rw [e0]; dsimp only; omega
  | ⟨1, _⟩ => show win0_1.index ⟨8 * q + s, h⟩ (1 : Fin 3) * 256 + 1 * t'.val = 256 * s + t'.val; rw [e1]; dsimp only; omega
  | ⟨2, _⟩ => show win0_1.index ⟨8 * q + s, h⟩ (2 : Fin 3) * 88 + 1 * d.val = d.val; rw [e2]; omega

/-! ## The second pass's input blocks -/

theorem iblk1_0_apply (c : Dev nD) (q s : ℕ) (hq : q < 2) (hs : s < 8) (h : 8 * q + s < cfg1.N) (r : Fin 64) (t' : Fin 256) (d : Fin 88) :
    iblk1 V c 0 ⟨8 * q + s, h⟩ (ix3 r t' d) = V c main_arg0 (ix3 (rowOf q hq r) (frameOf s hs t') d) := by
  unfold iblk1
  rw [View.read_apply]
  show V c main_arg0 _ = V c main_arg0 _
  refine congrArg _ ?_
  obtain ⟨e0, e1, e2, -⟩ := idx1 ⟨8 * q + s, h⟩
  funext a
  apply Fin.ext
  match a with
  | ⟨0, _⟩ => show win1_0.index ⟨8 * q + s, h⟩ (0 : Fin 3) * 64 + 1 * r.val = 64 * q + r.val; rw [e0]; dsimp only; omega
  | ⟨1, _⟩ => show win1_0.index ⟨8 * q + s, h⟩ (1 : Fin 3) * 256 + 1 * t'.val = 256 * s + t'.val; rw [e1]; dsimp only; omega
  | ⟨2, _⟩ => show win1_0.index ⟨8 * q + s, h⟩ (2 : Fin 3) * 88 + 1 * d.val = d.val; rw [e2]; omega

theorem iblk1_1_apply (c : Dev nD) (q s : ℕ) (hq : q < 2) (hs : s < 8) (h : 8 * q + s < cfg1.N) (r : Fin 64) (t' : Fin 256) (d : Fin 88) :
    iblk1 V c 1 ⟨8 * q + s, h⟩ (ix3 r t' d) = V c main_arg1 (ix3 (rowOf q hq r) (frameOf s hs t') d) := by
  unfold iblk1
  rw [View.read_apply]
  show V c main_arg1 _ = V c main_arg1 _
  refine congrArg _ ?_
  obtain ⟨-, -, -, e0, e1, e2, -⟩ := idx1 ⟨8 * q + s, h⟩
  funext a
  apply Fin.ext
  match a with
  | ⟨0, _⟩ => show win1_1.index ⟨8 * q + s, h⟩ (0 : Fin 3) * 64 + 1 * r.val = 64 * q + r.val; rw [e0]; dsimp only; omega
  | ⟨1, _⟩ => show win1_1.index ⟨8 * q + s, h⟩ (1 : Fin 3) * 256 + 1 * t'.val = 256 * s + t'.val; rw [e1]; dsimp only; omega
  | ⟨2, _⟩ => show win1_1.index ⟨8 * q + s, h⟩ (2 : Fin 3) * 88 + 1 * d.val = d.val; rw [e2]; omega

/-- The staged true-positive counts: entry r is the count of row 64 q + r. -/
theorem iblk1_2_apply (c : Dev nD) (q s : ℕ) (hq : q < 2) (hs : s < 8) (h : 8 * q + s < cfg1.N) (r : Fin 64) :
    iblk1 V c 2 ⟨8 * q + s, h⟩ (ix2 r (0 : Fin 1)) = V c main_v0 (ix2 (rowOf q hq r) (0 : Fin 1)) := by
  unfold iblk1
  rw [View.read_apply]
  show V c main_v0 _ = V c main_v0 _
  refine congrArg _ ?_
  obtain ⟨-, -, -, -, -, -, e0, e1, -⟩ := idx1 ⟨8 * q + s, h⟩
  funext a
  apply Fin.ext
  match a with
  | ⟨0, _⟩ => show win1_2.index ⟨8 * q + s, h⟩ (0 : Fin 2) * 64 + 1 * r.val = 64 * q + r.val; rw [e0]; dsimp only; omega
  | ⟨1, _⟩ => show win1_2.index ⟨8 * q + s, h⟩ (1 : Fin 2) * 1 + 1 * 0 = 0; rw [e1]

/-- The staged weights: entry (r, t') is the weight of row 64 q + r, frame 256 s + t'. -/
theorem iblk1_3_apply (c : Dev nD) (q s : ℕ) (hq : q < 2) (hs : s < 8) (h : 8 * q + s < cfg1.N) (r : Fin 64) (t' : Fin 256) :
    iblk1 V c 3 ⟨8 * q + s, h⟩ (ix2 r t') = V c main_v8 (ix2 (rowOf q hq r) (frameOf s hs t')) := by
  unfold iblk1
  rw [View.read_apply]
  show V c main_v8 _ = V c main_v8 _
  refine congrArg _ ?_
  obtain ⟨-, -, -, -, -, -, -, -, e0, e1, -⟩ := idx1 ⟨8 * q + s, h⟩
  funext a
  apply Fin.ext
  match a with
  | ⟨0, _⟩ => show win1_3.index ⟨8 * q + s, h⟩ (0 : Fin 2) * 64 + 1 * r.val = 64 * q + r.val; rw [e0]; dsimp only; omega
  | ⟨1, _⟩ => show win1_3.index ⟨8 * q + s, h⟩ (1 : Fin 2) * 256 + 1 * t'.val = 256 * s + t'.val; rw [e1]; dsimp only; omega

end Cert.KernelIdeal.KValue

end
-- ==== Proof.Spec.lean ====
/-
  The value both programs compute, as one function of the argument arrays over the extended reals.

  For a score array x[n, t, d], a 0/1 target array y[n, t, d] and a validity weight w[n, t]:
    pred(x)      = 1 if x > 0, else 0                         (a logistic score above one half)
    tp(n)        = sum over t and d of pred(x) * y            (true positives of sequence n)
    fpos(n, t)   = sum over d of pred(x) * (1 - y)            (false positives of frame t)
    fneg(n, t)   = sum over d of (1 - pred(x)) * y            (false negatives of frame t)
    ratio(n, t)  = tp(n) / ((tp(n) + fpos(n, t)) + fneg(n, t))
    rowSum(n)    = sum over t of ratio(n, t) * w(n, t)
  The programs then divide rowSum(n) by the number of valid frames and add over n; that last step is the
  same host chain in both and is carried as it stands (`total`).
-/
import Idealize.ShloMosaic.PureOps.Ideal
import Idealize.ShloMosaic.PureOps.Ideal.Laws
import Idealize.ShloMosaic.Lib.ValueIdx

noncomputable section

open scoped BigOperators

namespace Cert.FrameScore

open Idealize.ShloMosaic Idealize.ShloMosaic.ValueIdx

/-- Scores and targets: 128 sequences, 2048 frames, 88 features. -/
abbrev SX : Shape := ⟨3, ![128, 2048, 88]⟩
/-- One weight per frame. -/
abbrev SW : Shape := ⟨2, ![128, 2048]⟩
/-- One number per sequence. -/
abbrev SN : Shape := ⟨1, ![128]⟩

/-- The float one, as both programs spell it. -/
abbrev one : EReal := Ideal.ofBits .f32 0x3F800000#32

/-- The thresholded prediction: one where the score is positive, zero elsewhere. -/
def pred (x : EReal) : EReal := if 0 < x then 1 else 0

/-- True positives of sequence `n`: over every frame and feature. -/
def tp (x y : SX.Idx → EReal) (n : Fin 128) : EReal :=
  ∑ t : Fin 2048, ∑ d : Fin 88, pred (x (ix3 n t d)) * y (ix3 n t d)

/-- False positives of frame `t` of sequence `n`. -/
def fpos (x y : SX.Idx → EReal) (n : Fin 128) (t : Fin 2048) : EReal :=
  ∑ d : Fin 88, pred (x (ix3 n t d)) * (one - y (ix3 n t d))

/-- False negatives of frame `t` of sequence `n`. -/
def fneg (x y : SX.Idx → EReal) (n : Fin 128) (t : Fin 2048) : EReal :=
  ∑ d : Fin 88, (one - pred (x (ix3 n t d))) * y (ix3 n t d)

/-- The frame's score: true positives of the sequence over true positives plus the frame's errors. -/
def ratio (x y : SX.Idx → EReal) (n : Fin 128) (t : Fin 2048) : EReal :=
  Ideal.div (tp x y n) ((tp x y n + fpos x y n t) + fneg x y n t)

/-- The weighted sum of a sequence's frame scores. -/
def rowSum (x y : SX.Idx → EReal) (w : SW.Idx → EReal) (n : Fin 128) : EReal :=
  ∑ t : Fin 2048, ratio x y n t * w (ix2 n t)

/-- The sequence sums as an array. -/
def rowSums (x y : SX.Idx → EReal) (w : SW.Idx → EReal) : SN.Idx → EReal := fun i => rowSum x y w (i 0)

end Cert.FrameScore

end
-- ==== Proof.BlockSums.lean ====
/-
  The two block terms of the passes read at one row, at the ideal values (floats as extended reals).

  A block holds 64 rows, 256 frames and 88 features. Its thresholded score at an element is one where the score is
  positive and zero elsewhere; its true-positive column at row r is the sum over the block's frames and features
  of the thresholded score times the target; its weighted column at row r is the sum over the block's frames of
  tp / ((tp + the frame's false positives) + the frame's false negatives) times the frame's weight. A sum over
  2048 frames is the sum over eight such runs of 256 frames.
-/
import proofs.«135681_j77257871721096_2_alg».proof.Proof.AccCases
import proofs.«135681_j77257871721096_2_alg».proof.Proof.Spec
import Idealize.ShloMosaic.Lib.ValueIdx
import Idealize.ShloMosaic.PureOps.Ideal.Laws
import Idealize.ShloMosaic.Lib.Pipeline.Value
import Idealize.ShloMosaic.Lib.ValueLayout

set_option maxRecDepth 16384

noncomputable section

open scoped BigOperators

namespace Cert.KernelIdeal.KValue

open Cert.KernelIdeal Cert.KernelIdeal.Gen Idealize.ShloMosaic Idealize.ShloMosaic.ValueIdx

/-- a sum over 2048 frames is the sum over eight runs of 256 frames -/
theorem sum_frames (f : Fin 2048 → EReal) :
    ∑ t : Fin 2048, f t = ∑ j : Fin 8, ∑ t' : Fin 256, f ⟨256 * j.val + t'.val, by have := j.isLt; have := t'.isLt; omega⟩ := by
  refine (Equiv.sum_comp (finProdFinEquiv : Fin 8 × Fin 256 ≃ Fin (8 * 256)) f).symm.trans ?_
  rw [Fintype.sum_prod_type]
  refine Finset.sum_congr rfl fun j _ => Finset.sum_congr rfl fun t' _ => congrArg f (Fin.ext ?_)
  show t'.val + 256 * j.val = 256 * j.val + t'.val
  exact Nat.add_comm _ _

/-! ## One element: the thresholded score -/

/-- The comparison bit "x above zero", widened to 32 bits and read as a signed integer, is the real one where
    x is positive and the real zero elsewhere; as extended reals these are the thresholded score. -/
theorem predWord_eq (x : EReal) :
    (((BitVec.setWidth 32 (Ideal.cmp .ogt x 0)).toInt : ℝ) : EReal) = Cert.FrameScore.pred x := by
  unfold Ideal.cmp Cert.FrameScore.pred
  by_cases h : (0 : EReal) < x
  · rw [if_pos h]
    have hb : BitVec.ofBool (decide ((0 : EReal) < x)) = 1#1 := by rw [decide_eq_true h]; rfl
    simp only [hb]
    have h1 : (BitVec.setWidth 32 1#1).toInt = 1 := by decide
    rw [h1, Int.cast_one, EReal.coe_one]
  · rw [if_neg h]
    have hb : BitVec.ofBool (decide ((0 : EReal) < x)) = 0#1 := by rw [decide_eq_false h]; rfl
    simp only [hb]
    have h0 : (BitVec.setWidth 32 0#1).toInt = 0 := by decide
    rw [h0, Int.cast_zero, EReal.coe_zero]

/-- the thresholded score at an element: one where the score is positive -/
theorem blockPred_apply (x0 : Vec Ideal S64x256x88 .f32) (i : S64x256x88.Idx) :
    blockPred (F := Ideal) x0 i = Cert.FrameScore.pred (x0 i) := by
  unfold blockPred
  rw [sitofp_apply, extui_apply, cmpf_apply, broadcast_apply]
  show (((BitVec.setWidth 32 (Ideal.cmp .ogt (x0 i) (Ideal.ofBits .f32 0x00000000#32))).toInt : ℝ) : EReal) = _
  rw [Ideal.ofBits_zero_f32]
  exact predWord_eq (x0 i)

/-! ## Layout: the column cast, the column broadcast, the two lane sums -/

/-- A 64-vector cast to a 64 x 1 column reads, at (r, 0), the vector at r. -/
theorem colCast_apply {α : Type} (v : S64.Idx → α) (h : S64.ShapeCasts S64x1) (r : Fin 64) (u : Fin 1) :
    shapeCast S64x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A 64 x 1 column broadcast over 256 frames reads, at (r, t), the column at (r, 0). -/
theorem colBroadcast_apply {α : Type} (v : S64x1.Idx → α) (h : S64x1.Broadcasts S64x256) (r : Fin 64) (t : Fin 256) :
    broadcastTo S64x256 v h (ix2 r t) = v (ix2 r (0 : Fin 1)) := by
  refine broadcastTo_apply v h (ix2 r t) (ix2 r (0 : Fin 1)) fun ax => ?_
  match ax with
  | ⟨0, _⟩ => rfl
  | ⟨1, _⟩ => rfl

/-- The lane sum over the features, read at row r and frame t: the sum over the 88 features. -/
theorem featSum_apply (v : FVec Ideal S64x256x88 .f32) (h : S64x256x88.Reduces [2] S64x256) (hφ : FKind.Formats .f32)
    (hacc : (0x00000000#32 : BitVec 32) = FKind.add.neutral .f32 hφ) (r : Fin 64) (t : Fin 256) :
    multiReduction (F := Ideal) .add [2] S64x256 v 0x00000000#32 h hφ hacc (ix2 r t) = ∑ d : Fin 88, v (ix3 r t d) := by
  refine (Ideal.multiReduction_add_single v _ h hφ hacc (ix2 r t)).trans ?_
  refine Finset.sum_congr rfl fun d _ => congrArg v ?_
  funext a
  match a with
  | ⟨0, _⟩ => rfl
  | ⟨1, _⟩ => rfl
  | ⟨2, _⟩ => rfl

/-- The lane sum over the frames, read at row r: the sum over the 256 frames. -/
theorem frameSum_apply (v : FVec Ideal S64x256 .f32) (h : S64x256.Reduces [1] S64) (hφ : FKind.Formats .f32)
    (hacc : (0x00000000#32 : BitVec 32) = FKind.add.neutral .f32 hφ) (r : Fin 64) :
    multiReduction (F := Ideal) .add [1] S64 v 0x00000000#32 h hφ hacc (ix1 r) = ∑ t : Fin 256, v (ix2 r t) := by
  refine (Ideal.multiReduction_add_single v _ h hφ hacc (ix1 r)).trans ?_
  refine Finset.sum_congr rfl fun t _ => congrArg v ?_
  funext a
  match a with
  | ⟨0, _⟩ => rfl
  | ⟨1, _⟩ => rfl

/-! ## The two block terms at a row -/

/-- a block's true positives of row r: the sum over the block's frames and features -/
theorem blockTp_apply (x0 x1 : Vec Ideal S64x256x88 .f32) (r : Fin 64) :
    blockTp (F := Ideal) x0 x1 (ix2 r (0 : Fin 1))
      = ∑ t : Fin 256, ∑ d : Fin 88, Cert.FrameScore.pred (x0 (ix3 r t d)) * x1 (ix3 r t d) := by
  unfold blockTp
  refine (colCast_apply _ _ r 0).trans ?_
  refine (frameSum_apply _ _ _ _ r).trans ?_
  refine Finset.sum_congr rfl fun t _ => ?_
  refine (featSum_apply _ _ _ _ r t).trans ?_
  refine Finset.sum_congr rfl fun d _ => ?_
  show blockPred (F := Ideal) x0 (ix3 r t d) * x1 (ix3 r t d) = _
  rw [blockPred_apply]

/-- a block's weighted sum of frame scores of row r -/
theorem blockAcc_apply (x0 x1 : Vec Ideal S64x256x88 .f32) (tpb : Vec Ideal S64x1 .f32) (wb : Vec Ideal S64x256 .f32) (r : Fin 64) :
    blockAcc (F := Ideal) x0 x1 tpb wb (ix2 r (0 : Fin 1))
      = ∑ t : Fin 256, Ideal.div (tpb (ix2 r (0 : Fin 1)))
          ((tpb (ix2 r (0 : Fin 1)) + ∑ d : Fin 88, Cert.FrameScore.pred (x0 (ix3 r t d)) * (Cert.FrameScore.one - x1 (ix3 r t d)))
            + ∑ d : Fin 88, (Cert.FrameScore.one - Cert.FrameScore.pred (x0 (ix3 r t d))) * x1 (ix3 r t d))
          * wb (ix2 r t) := by
  unfold blockAcc
  refine (colCast_apply _ _ r 0).trans ?_
  refine (frameSum_apply _ _ _ _ r).trans ?_
  refine Finset.sum_congr rfl fun t _ => ?_
  rw [mulf_apply, divf_apply, addf_apply, addf_apply, colBroadcast_apply]
  refine congrArg (· * wb (ix2 r t)) (congrArg (Ideal.div (tpb (ix2 r (0 : Fin 1)))) ?_)
  refine congrArg₂ (· + ·) (congrArg (tpb (ix2 r (0 : Fin 1)) + ·) ?_) ?_
  · refine (featSum_apply _ _ _ _ r t).trans ?_
    refine Finset.sum_congr rfl fun d _ => ?_
    rw [mulf_apply, subf_apply, broadcast_apply, blockPred_apply]
    rfl
  · refine (featSum_apply _ _ _ _ r t).trans ?_
    refine Finset.sum_congr rfl fun d _ => ?_
    rw [mulf_apply, subf_apply, broadcast_apply, blockPred_apply]
    rfl

end Cert.KernelIdeal.KValue

end
-- ==== Proof.TpArray.lean ====
/-
  What the first pass leaves: the true positives of every sequence.

  At the last point of a run of eight grid points the pass's column holds the sum of the run's eight block sums; a
  block sum at row r is the sum over the block's 256 frames and 88 features of pred(x) * y, and the eight blocks of
  a run are the eight runs of 256 frames of rows 64 q .. 64 q + 63. A sum over 2048 frames is the sum over eight
  runs of 256, so the column written back is tp(n) at each of the run's rows; the two runs' write-backs cover the
  128 rows.
-/
import proofs.«135681_j77257871721096_2_alg».proof.Proof.BlockReads
import proofs.«135681_j77257871721096_2_alg».proof.Proof.Spec
import proofs.«135681_j77257871721096_2_alg».proof.Proof.BlockSums
import Idealize.ShloMosaic.Lib.Pipeline.Value
import Idealize.ShloMosaic.PureOps.Ideal.Laws

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The first pass's addend of point `n`, as a function of every natural (zero past the grid). -/
def tpM (c : Dev nD) (n : ℕ) : S64x1.Idx → EReal := fun i => if h : n < cfg0.N then tpAdd V c n h i else 0

/-- At the last point of a run the column holds the sum of the run's eight block sums. -/
theorem tp_fold_apply (c : Dev nD) (t : ℕ) (ht : t < cfg0.N) (h7 : t % 8 = 7) (i : S64x1.Idx) :
    outsAt0 V c t ht i = ∑ s ∈ Finset.range 8, tpM V c (8 * (t / 8) + s) i := by
  have h16 : cfg0.N = 16 := N_0
  rw [outsAt0_fold V c t ht (by omega)]
  have key := Pipeline.accAt_add_apply (N := cfg0.N) (ι := S64x1.Idx) (β := EReal)
    (fun n h => addf zeroCol (tpAdd V c n h)) (fun n h acc => addf acc (tpAdd V c n h)) (fun _ => (0 : EReal)) (tpM V c) (8 * (t / 8)) 7
    (fun h i => by
      show (Ideal.ofBits .f32 0x00000000#32 : EReal) + tpAdd V c (8 * (t / 8)) h i = 0 + tpM V c (8 * (t / 8)) i
      rw [Ideal.ofBits_zero_f32, show tpM V c (8 * (t / 8)) i = tpAdd V c (8 * (t / 8)) h i from dif_pos h])
    (fun n h acc i _ _ => by
      show acc i + tpAdd V c n h i = acc i + tpM V c n i
      rw [show tpM V c n i = tpAdd V c n h i from dif_pos h])
    (t % 8) (by omega) (by omega) i
  rw [key, zero_add, h7]

/-- The addend of point 8 q + s at row r: the block's entries are the arrays' entries of rows 64 q + r, frames
    256 s + t'. -/
theorem tpM_apply (c : Dev nD) (q s : ℕ) (hq : q < 2) (hs : s < 8) (r : Fin 64) :
    tpM V c (8 * q + s) (ix2 r (0 : Fin 1))
      = ∑ t' : Fin 256, ∑ d : Fin 88, Cert.FrameScore.pred (V c main_arg0 (ix3 (rowOf q hq r) (frameOf s hs t') d))
          * V c main_arg1 (ix3 (rowOf q hq r) (frameOf s hs t') d) := by
  have h16 : cfg0.N = 16 := N_0
  have h : 8 * q + s < cfg0.N := by omega
  unfold tpM
  rw [dif_pos h]
  unfold tpAdd
  rw [blockTp_apply]
  simp only [iblk0_0_apply V c q s hq hs h, iblk0_1_apply V c q s hq hs h]

/-- The true positives of every sequence, as the column the first pass leaves. -/
def tpCol (c : Dev nD) : Buf (Elt Ideal) ((c : Thread nD τ).loc main_v0) :=
  fun i => Cert.FrameScore.tp (V c main_arg0) (V c main_arg1) (i 0)

/-- What the last point of a run writes back is the run's rows of the true-positive column. -/
theorem tp_flushed (c : Dev nD) (t : Fin cfg0.N) (hf : (cfg0.win 2).flush t = true) :
    (dat0 V c).flushed 2 t = ((cfg0.win 2).blk t).view.read (Elt Ideal) (tpCol V c) := by
  have h16 : cfg0.N = 16 := N_0
  have h7 : t.val % 8 = 7 := (flush0_2 t).mp hf
  have hq : t.val / 8 < 2 := by have := t.isLt; omega
  show (cfg0.win 2).cut (grid0.coords t) ((dat0 V c).after 2 t) = _
  rw [after0_2]
  funext y
  obtain ⟨r, z, rfl⟩ : ∃ (r : Fin 64) (z : Fin 1), y = ix2 r z := ⟨y 0, y 1, eq_ix2 y⟩
  obtain rfl : z = 0 := Subsingleton.elim _ _
  rw [View.read_apply]
  have hemb : ((cfg0.win 2).blk t).view.emb (ix2 r (0 : Fin 1)) = ix2 (rowOf (t.val / 8) hq r) (0 : Fin 1) := by
    obtain ⟨-, -, -, -, -, -, e0, e1⟩ := idx0 t
    funext a
    apply Fin.ext
    match a with
    | ⟨0, _⟩ => show win0_2.index t (0 : Fin 2) * 64 + 1 * r.val = 64 * (t.val / 8) + r.val; rw [e0]; omega
    | ⟨1, _⟩ => show win0_2.index t (1 : Fin 2) * 1 + 1 * 0 = 0; rw [e1]
  rw [hemb]
  show outsAt0 V c t.val t.isLt (ix2 r (0 : Fin 1)) = Cert.FrameScore.tp (V c main_arg0) (V c main_arg1) (rowOf (t.val / 8) hq r)
  rw [tp_fold_apply V c t.val t.isLt h7, Finset.sum_range,
    Finset.sum_congr rfl (fun (j : Fin 8) _ => tpM_apply V c (t.val / 8) j.val hq j.isLt r)]
  unfold Cert.FrameScore.tp
  rw [sum_frames]

/-- So the first pass leaves the true-positive column: the two runs' last points cover its 128 rows. -/
theorem tp_final (c : Dev nD) : (dat0 V c).arrAt 2 cfg0.N = tpCol V c :=
  (dat0 V c).arrAt_eq_of_cover 2 (tpCol V c) (tp_flushed V c) fun i => by
    have h16 : cfg0.N = 16 := N_0
    have hi0 : (i 0).val < 128 := (i 0).isLt
    have hi1 : (i 1).val < 1 := (i 1).isLt
    have hlt : 8 * ((i 0).val / 64) + 7 < cfg0.N := by omega
    refine ⟨⟨8 * ((i 0).val / 64) + 7, hlt⟩, (flush0_2 _).mpr (by dsimp only; omega), ?_⟩
    show i ∈ ((View.whole main_v0).slice (win0_2.rect ⟨8 * ((i 0).val / 64) + 7, hlt⟩)).set
    rw [View.set_slice_whole, Rect.mem_set_unit]
    obtain ⟨-, -, -, -, -, -, e0, e1⟩ := idx0 ⟨8 * ((i 0).val / 64) + 7, hlt⟩
    intro a
    match a with
    | ⟨0, _⟩ =>
      show win0_2.index ⟨8 * ((i 0).val / 64) + 7, hlt⟩ (0 : Fin 2) * 64 ≤ (i 0).val ∧ (i 0).val < win0_2.index ⟨8 * ((i 0).val / 64) + 7, hlt⟩ (0 : Fin 2) * 64 + 64
      rw [e0]; dsimp only; omega
    | ⟨1, _⟩ =>
      show win0_2.index ⟨8 * ((i 0).val / 64) + 7, hlt⟩ (1 : Fin 2) * 1 ≤ (i 1).val ∧ (i 1).val < win0_2.index ⟨8 * ((i 0).val / 64) + 7, hlt⟩ (1 : Fin 2) * 1 + 1
      rw [e1]; omega

end Cert.KernelIdeal.KValue

end
-- ==== Proof.SpecOf.lean ====
/-
  The frame score with the sequence's true-positive count given from outside.

  The second pass does not recompute the true positives: it reads them from the column the first pass left. Its
  value is therefore stated with the count as a parameter; at the count tp(n) it is the specification's row sum.
-/
import proofs.«135681_j77257871721096_2_alg».proof.Proof.Spec

noncomputable section

open scoped BigOperators

namespace Cert.FrameScore

open Idealize.ShloMosaic Idealize.ShloMosaic.ValueIdx

/-- The frame's score for a sequence whose true-positive count is `T`. -/
def ratioOf (T : EReal) (x y : SX.Idx → EReal) (n : Fin 128) (t : Fin 2048) : EReal :=
  Ideal.div T ((T + fpos x y n t) + fneg x y n t)

/-- The weighted sum of a sequence's frame scores, the sequence's true-positive count being `T`. -/
def rowSumOf (T : EReal) (x y : SX.Idx → EReal) (w : SW.Idx → EReal) (n : Fin 128) : EReal :=
  ∑ t : Fin 2048, ratioOf T x y n t * w (ix2 n t)

/-- At the sequence's own count this is the specification's row sum. -/
theorem rowSum_eq (x y : SX.Idx → EReal) (w : SW.Idx → EReal) (n : Fin 128) :
    rowSum x y w n = rowSumOf (tp x y n) x y w n := rfl

end Cert.FrameScore

end
-- ==== Proof.AccArray.lean ====
/-
  What the second pass leaves: each sequence's weighted sum of frame scores.

  At the last point of a run of eight grid points the pass's column holds the sum of the run's eight block sums; a
  block sum at row r is the sum over the block's 256 frames of T / ((T + false positives) + false negatives) times
  the frame's weight, T the staged count of the row. The eight blocks of a run are the eight runs of 256 frames of
  rows 64 q .. 64 q + 63, so the column written back is the sum over all 2048 frames; the two runs' write-backs
  cover the 128 rows.
-/
import proofs.«135681_j77257871721096_2_alg».proof.Proof.BlockReads
import proofs.«135681_j77257871721096_2_alg».proof.Proof.SpecOf
import proofs.«135681_j77257871721096_2_alg».proof.Proof.BlockSums
import Idealize.ShloMosaic.Lib.Pipeline.Value
import Idealize.ShloMosaic.PureOps.Ideal.Laws

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The second pass's addend of point `n`, as a function of every natural (zero past the grid). -/
def accM (c : Dev nD) (n : ℕ) : S64x1.Idx → EReal := fun i => if h : n < cfg1.N then accAdd V c n h i else 0

/-- At the last point of a run the column holds the sum of the run's eight block sums. -/
theorem acc_fold_apply (c : Dev nD) (t : ℕ) (ht : t < cfg1.N) (h7 : t % 8 = 7) (i : S64x1.Idx) :
    outsAt1 V c t ht i = ∑ s ∈ Finset.range 8, accM V c (8 * (t / 8) + s) i := by
  have h16 : cfg1.N = 16 := N_1
  rw [outsAt1_fold V c t ht (by omega)]
  have key := Pipeline.accAt_add_apply (N := cfg1.N) (ι := S64x1.Idx) (β := EReal)
    (fun n h => addf zeroCol (accAdd V c n h)) (fun n h acc => addf acc (accAdd V c n h)) (fun _ => (0 : EReal)) (accM V c) (8 * (t / 8)) 7
    (fun h i => by
      show (Ideal.ofBits .f32 0x00000000#32 : EReal) + accAdd V c (8 * (t / 8)) h i = 0 + accM V c (8 * (t / 8)) i
      rw [Ideal.ofBits_zero_f32, show accM V c (8 * (t / 8)) i = accAdd V c (8 * (t / 8)) h i from dif_pos h])
    (fun n h acc i _ _ => by
      show acc i + accAdd V c n h i = acc i + accM V c n i
      rw [show accM V c n i = accAdd V c n h i from dif_pos h])
    (t % 8) (by omega) (by omega) i
  rw [key, zero_add, h7]

/-- The addend of point 8 q + s at row r, over the arrays' entries of row 64 q + r and frames 256 s + t'. -/
theorem accM_apply (c : Dev nD) (q s : ℕ) (hq : q < 2) (hs : s < 8) (r : Fin 64) :
    accM V c (8 * q + s) (ix2 r (0 : Fin 1))
      = ∑ t' : Fin 256, Cert.FrameScore.ratioOf (V c main_v0 (ix2 (rowOf q hq r) (0 : Fin 1))) (V c main_arg0) (V c main_arg1)
            (rowOf q hq r) (frameOf s hs t')
          * V c main_v8 (ix2 (rowOf q hq r) (frameOf s hs t')) := by
  have h16 : cfg1.N = 16 := N_1
  have h : 8 * q + s < cfg1.N := by omega
  unfold accM
  rw [dif_pos h]
  unfold accAdd
  rw [blockAcc_apply]
  simp only [iblk1_0_apply V c q s hq hs h, iblk1_1_apply V c q s hq hs h, iblk1_2_apply V c q s hq hs h,
    iblk1_3_apply V c q s hq hs h]
  rfl

/-- A sequence's weighted sum of frame scores, its true-positive count read from the first pass's column. -/
def accVal (c : Dev nD) (n : Fin 128) : EReal :=
  Cert.FrameScore.rowSumOf (V c main_v0 (ix2 n (0 : Fin 1))) (V c main_arg0) (V c main_arg1) (V c main_v8) n

/-- The column the second pass leaves. -/
def accCol (c : Dev nD) : Buf (Elt Ideal) ((c : Thread nD τ).loc main_v9) := fun i => accVal V c (i 0)

/-- What the last point of a run writes back is the run's rows of that column. -/
theorem acc_flushed (c : Dev nD) (t : Fin cfg1.N) (hf : (cfg1.win 4).flush t = true) :
    (dat1 V c).flushed 4 t = ((cfg1.win 4).blk t).view.read (Elt Ideal) (accCol V c) := by
  have h16 : cfg1.N = 16 := N_1
  have h7 : t.val % 8 = 7 := (flush1_4 t).mp hf
  have hq : t.val / 8 < 2 := by have := t.isLt; omega
  show (cfg1.win 4).cut (grid1.coords t) ((dat1 V c).after 4 t) = _
  rw [after1_4]
  funext y
  obtain ⟨r, z, rfl⟩ : ∃ (r : Fin 64) (z : Fin 1), y = ix2 r z := ⟨y 0, y 1, eq_ix2 y⟩
  obtain rfl : z = 0 := Subsingleton.elim _ _
  rw [View.read_apply]
  have hemb : ((cfg1.win 4).blk t).view.emb (ix2 r (0 : Fin 1)) = ix2 (rowOf (t.val / 8) hq r) (0 : Fin 1) := by
    obtain ⟨-, -, -, -, -, -, -, -, -, -, e0, e1⟩ := idx1 t
    funext a
    apply Fin.ext
    match a with
    | ⟨0, _⟩ => show win1_4.index t (0 : Fin 2) * 64 + 1 * r.val = 64 * (t.val / 8) + r.val; rw [e0]; omega
    | ⟨1, _⟩ => show win1_4.index t (1 : Fin 2) * 1 + 1 * 0 = 0; rw [e1]
  rw [hemb]
  show outsAt1 V c t.val t.isLt (ix2 r (0 : Fin 1)) = accVal V c (rowOf (t.val / 8) hq r)
  rw [acc_fold_apply V c t.val t.isLt h7, Finset.sum_range,
    Finset.sum_congr rfl (fun (j : Fin 8) _ => accM_apply V c (t.val / 8) j.val hq j.isLt r)]
  unfold accVal Cert.FrameScore.rowSumOf
  rw [sum_frames]

/-- So the second pass leaves that column: the two runs' last points cover its 128 rows. -/
theorem acc_final (c : Dev nD) : (dat1 V c).arrAt 4 cfg1.N = accCol V c :=
  (dat1 V c).arrAt_eq_of_cover 4 (accCol V c) (acc_flushed V c) fun i => by
    have h16 : cfg1.N = 16 := N_1
    have hi0 : (i 0).val < 128 := (i 0).isLt
    have hi1 : (i 1).val < 1 := (i 1).isLt
    have hlt : 8 * ((i 0).val / 64) + 7 < cfg1.N := by omega
    refine ⟨⟨8 * ((i 0).val / 64) + 7, hlt⟩, (flush1_4 _).mpr (by dsimp only; omega), ?_⟩
    show i ∈ ((View.whole main_v9).slice (win1_4.rect ⟨8 * ((i 0).val / 64) + 7, hlt⟩)).set
    rw [View.set_slice_whole, Rect.mem_set_unit]
    obtain ⟨-, -, -, -, -, -, -, -, -, -, e0, e1⟩ := idx1 ⟨8 * ((i 0).val / 64) + 7, hlt⟩
    intro a
    match a with
    | ⟨0, _⟩ =>
      show win1_4.index ⟨8 * ((i 0).val / 64) + 7, hlt⟩ (0 : Fin 2) * 64 ≤ (i 0).val ∧ (i 0).val < win1_4.index ⟨8 * ((i 0).val / 64) + 7, hlt⟩ (0 : Fin 2) * 64 + 64
      rw [e0]; dsimp only; omega
    | ⟨1, _⟩ =>
      show win1_4.index ⟨8 * ((i 0).val / 64) + 7, hlt⟩ (1 : Fin 2) * 1 ≤ (i 1).val ∧ (i 1).val < win1_4.index ⟨8 * ((i 0).val / 64) + 7, hlt⟩ (1 : Fin 2) * 1 + 1
      rw [e1]; omega

end Cert.KernelIdeal.KValue

end
-- ==== Proof.KernelRun.lean ====
/-
  The idealized kernel's run with its RESULT named.

  The program is two accumulating passes over the grid with host operations between and after them. Its run goes
  through four boundaries: the contents of the buffers after the first pass, after the host operations that build
  the validity weights, after the second pass, and after the closing host operations. Every execution terminates
  with every buffer at the last boundary's contents; here that is read at the result buffer as well as at the
  three arguments, so that what the result holds can be computed from the boundary contents alone.
-/
import proofs.«135681_j77257871721096_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents of the last
    boundary and the three arguments as launched. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KValue

end
-- ==== Proof.Boundaries.lean ====
/-
  The contents of the buffers at the boundaries of the run, read where the value needs them.

  Between the two passes the host computes, from the mask, the number of valid frames of each sequence (an integer
  sum over frames) and the validity weights (frame index below that number, as a float). After the second pass it
  reshapes the pass's column to a vector, divides by the frame counts as floats and adds over the sequences. The
  passes read the score and target arrays as launched; the second pass reads the first pass's column.
-/
import proofs.«135681_j77257871721096_2_alg».proof.Proof.KernelRun
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The number of valid frames of each sequence: the mask summed over frames, as 32-bit integers. -/
def frameCount (mk : IVec S128x2048 32) : IVec S128 32 :=
  Host.reduce IntOp.addi mk (constantI S_ 32 0#32) reducesTo_S128x2048_S128_d1 h_S_

/-- The validity weights: one where the frame index is below the sequence's frame count, zero elsewhere. -/
def weights (mk : IVec S128x2048 32) : FVec F S128x2048 .f32 :=
  uitofp .f32
    (cmpi .slt
      (broadcastInDim S128x2048 ![0, 1] bcast_S1x2048_S128x2048_0_1
        (broadcastInDim S1x2048 ![1] bcast_S2048_S1x2048_1 (iotaInDim S2048 32 0)))
      (broadcastInDim S128x2048 ![0, 1] bcast_S128x1_S128x2048_0_1
        (broadcastInDim S128x1 ![0] bcast_S128_S128x1_0 (frameCount mk))))

/-- The closing host chain: the column as a vector, divided by the frame counts, added over the sequences. -/
def closing (A : FVec F S128x1 .f32) (cnt : IVec S128 32) : FVec F S_ .f32 :=
  Host.reduceAdd (Host.divf (shapeCast S128 A shapeCasts_S128x1_S128) (sitofp .f32 cnt))
    (constant S_ .f32 0x00000000#32) reducesTo_S128_S_d0 h_S_

variable (m : (ℓ : Loc nD τ sig) → Buf (Elt F) ℓ) (ρ : Dev nD → PrngReg)

/-- The mask is never written: after the first pass it is as launched. -/
theorem W1_mask (c : Dev nD) : W1 m ρ c (Proc.devRef .tc main_arg2) = m ((c : Thread nD τ).loc main_arg2) :=
  W1_of_ne m ρ c main_arg2 (by decide)

/-- The frame counts the host computes between the passes. -/
theorem W2_count (c : Dev nD) : W2 m ρ c (Proc.devRef .tc main_v1) = frameCount (m ((c : Thread nD τ).loc main_arg2)) := by
  show StableHlo.after hostOps1 (W1 m ρ c) (Proc.devRef .tc main_v1) = _
  after_results
  rw [W1_mask]
  rfl

/-- The validity weights the second pass reads. -/
theorem V2_weights (c : Dev nD) : V2 m ρ c main_v8 = weights (F := F) (m ((c : Thread nD τ).loc main_arg2)) := by
  show StableHlo.after hostOps1 (W1 m ρ c) (Proc.devRef .tc main_v8) = _
  after_results
  rw [W1_mask]
  rfl

/-- The second pass reads the first pass's column as the first pass left it. -/
theorem V2_tp (c : Dev nD) : V2 m ρ c main_v0 = (dat0 (V0 m ρ) c).arrAt 2 cfg0.N := by
  show StableHlo.after hostOps1 (W1 m ρ c) (Proc.devRef .tc main_v0) = _
  after_results
  exact W1_arr m ρ c 2

/-- The second pass reads the scores as launched. -/
theorem V2_scores (c : Dev nD) : V2 m ρ c main_arg0 = m ((c : Thread nD τ).loc main_arg0) := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- The second pass reads the targets as launched. -/
theorem V2_targets (c : Dev nD) : V2 m ρ c main_arg1 = m ((c : Thread nD τ).loc main_arg1) := by
  show StableHlo.after hostOps1 (W1 m ρ c) (Proc.devRef .tc main_arg1) = _
  after_results
  exact (W1_arr m ρ c 1).trans (((dat0 (V0 m ρ) c).arrAt_in 1 rfl _).trans (A_eq0 (V0 m ρ) c 1))

/-- The frame counts are not touched by the second pass. -/
theorem W3_count (c : Dev nD) : W3 m ρ c (Proc.devRef .tc main_v1) = frameCount (m ((c : Thread nD τ).loc main_arg2)) :=
  (W3_of_ne m ρ c main_v1 (by decide)).trans (W2_count m ρ c)

/-- The result: the closing chain of the second pass's column and the frame counts. -/
theorem result_eq (c : Dev nD) :
    W4 m ρ c (Proc.devRef .tc main_v13)
      = closing ((dat1 (V2 m ρ) c).arrAt 4 cfg1.N) (frameCount (m ((c : Thread nD τ).loc main_arg2))) := by
  show StableHlo.after hostOps2 (W3 m ρ c) (Proc.devRef .tc main_v13) = _
  after_results
  rw [W3_count, show W3 m ρ c (Proc.devRef .tc main_v9) = (dat1 (V2 m ρ) c).arrAt 4 cfg1.N from W3_arr m ρ c 4]
  rfl

end Cert.KernelIdeal.KValue

end
-- ==== Proof.KernelValue.lean ====
/-
  The idealized kernel's result as a function of its arguments.

  The second pass reads the scores and targets as launched, the validity weights the host built from the mask, and
  the true-positive column the first pass left; so the column it leaves is, at sequence n, the weighted sum of the
  frame scores of n with the count tp(n): the specification's row sum. The closing host chain reshapes that column
  to a vector (entry (n, 0) to entry n), divides by the frame counts and adds over the sequences.
-/
import proofs.«135681_j77257871721096_2_alg».proof.Proof.TpArray
import proofs.«135681_j77257871721096_2_alg».proof.Proof.AccArray
import proofs.«135681_j77257871721096_2_alg».proof.Proof.Boundaries

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result as a function of the arguments: the row sums over the host's weights, divided by the frame counts,
    added over the sequences. -/
def kernelResult (x y : S128x2048x88.Idx → EReal) (mk : IVec S128x2048 32) : FVec Ideal S_ .f32 :=
  Host.reduceAdd (Host.divf (Cert.FrameScore.rowSums x y (weights (F := Ideal) mk)) (sitofp .f32 (frameCount mk)))
    (constant S_ .f32 0x00000000#32) reducesTo_S128_S_d0 h_S_

/-- The column the second pass leaves is the specification's row sums of the launched arguments. -/
theorem accCol_eq (c : Dev nD) :
    accCol (V2 m ρ) c = fun i => Cert.FrameScore.rowSum (m ((c : Thread nD τ).loc main_arg0)) (m ((c : Thread nD τ).loc main_arg1))
      (weights (F := Ideal) (m ((c : Thread nD τ).loc main_arg2))) (i 0) := by
  funext i
  show accVal (V2 m ρ) c (i 0) = _
  unfold accVal
  rw [V2_scores, V2_targets, V2_weights, V2_tp, tp_final]
  rfl

/-- A 128 x 1 column reshaped to a vector: entry n is the column's entry (n, 0). -/
theorem col_as_vector (f : Fin 128 → EReal) :
    shapeCast S128 (fun i : S128x1.Idx => f (i 0)) shapeCasts_S128x1_S128 = fun j : S128.Idx => f (j 0) := by
  funext j
  obtain ⟨n, rfl⟩ : ∃ n : Fin 128, j = ix1 n := ⟨j 0, eq_ix1 j⟩
  exact shapeCast_apply _ _ (ix1 n) (ix2 n (0 : Fin 1)) (by
    rw [Shape.rowMajor_val_two, Shape.rowMajor_val_one]
    show n.val * 1 + 0 = n.val
    omega)

/-- The contents of the result buffer at the last boundary. -/
theorem kernel_value (c : Dev nD) :
    W4 m ρ c (Proc.devRef .tc main_v13)
      = kernelResult (m ((c : Thread nD τ).loc main_arg0)) (m ((c : Thread nD τ).loc main_arg1)) (m ((c : Thread nD τ).loc main_arg2)) := by
  rw [result_eq, acc_final, accCol_eq]
  unfold closing kernelResult
  refine congrArg (fun s => Host.reduceAdd (Host.divf s (sitofp .f32 (frameCount (m ((c : Thread nD τ).loc main_arg2)))))
    (constant S_ .f32 0x00000000#32) reducesTo_S128_S_d0 h_S_) ?_
  exact col_as_vector (fun n => Cert.FrameScore.rowSum (m ((c : Thread nD τ).loc main_arg0)) (m ((c : Thread nD τ).loc main_arg1))
    (weights (F := Ideal) (m ((c : Thread nD τ).loc main_arg2))) n)

/-- Every weakly fair execution of the idealized kernel terminates, nothing faulting, with the result at that
    function of the arguments and the arguments as launched. -/
theorem run : θ_run defs (onTc (τ := τ) (main (F := Ideal))) ⟨m, fun _ => 0, ρ⟩ (fun r => ∀ c : Dev nD,
      r.2.mem ((c.tc : Thread nD τ).loc main_v13)
        = kernelResult (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_value m ρ c), (h c).2⟩) (run_result m ρ)

end Cert.KernelIdeal.KValue

end
-- ==== Proof.SigmoidLaw.lean ====
/-
  The logistic threshold, over the extended reals.

  For a real score r the logistic value is 1 / (1 + exp(-r)). Since exp(-r) is a positive real, the denominator
  is a nonzero real and the quotient is the real 1 / (1 + exp(-r)). It exceeds one half exactly when
  1 + exp(-r) < 2, that is exp(-r) < 1, that is r > 0. So the one-bit comparison "logistic value above one half",
  read as a number, is 1 where the score is positive and 0 elsewhere.
-/
import proofs.«135681_j77257871721096_2_alg».proof.Proof.Spec
import Idealize.ShloMosaic.PureOps.Ideal
import Idealize.ShloMosaic.PureOps.Ideal.Laws

noncomputable section

namespace Cert.FrameScore

open Idealize.ShloMosaic

/-- The f32 pattern of one denotes one. -/
theorem one_eq : Ideal.ofBits .f32 0x3F800000#32 = (1 : EReal) := by
  rw [show (1 : EReal) = ((1 : ℝ) : EReal) by norm_cast]
  simp [Ideal.ofBits, Ideal.ieee, -EReal.coe_mul]; norm_num

/-- The f32 pattern of one half denotes the real one half. -/
theorem half_eq : Ideal.ofBits .f32 0x3F000000#32 = (((1/2 : ℝ)) : EReal) := by
  simp [Ideal.ofBits, Ideal.ieee, -EReal.coe_mul]; norm_num

/-- The f32 pattern of zero denotes zero. -/
theorem zero_eq : Ideal.ofBits .f32 0x00000000#32 = (0 : EReal) := Ideal.ofBits_zero_f32

/-- For a real score, 1 / (1 + exp(-r)) is above one half exactly when r is positive. -/
theorem logistic_gt_half_iff (r : ℝ) : (1/2 : ℝ) < 1 / (1 + Real.exp (-r)) ↔ 0 < r := by
  have hpos : 0 < Real.exp (-r) := Real.exp_pos _
  rw [one_div_lt_one_div (by norm_num) (by positivity)]
  constructor
  · intro h
    have h1 : Real.exp (-r) < 1 := by linarith
    rw [Real.exp_lt_one_iff] at h1
    linarith
  · intro h
    have h1 : Real.exp (-r) < 1 := Real.exp_lt_one_iff.2 (by linarith)
    linarith

/-- A logistic score is above one half exactly when the score is positive (real scores). -/
theorem sigmoid_gt_half (r : ℝ) :
    (((Ideal.cmp .ogt (Ideal.div (Ideal.ofBits .f32 0x3F800000#32)
        (Ideal.ofBits .f32 0x3F800000#32 + Ideal.exp (-((r : ℝ) : EReal))))
        (Ideal.ofBits .f32 0x3F000000#32)).toNat : ℝ) : EReal) = pred ((r : ℝ) : EReal) := by
  have he : Ideal.exp (-((r : ℝ) : EReal)) = ((Real.exp (-r) : ℝ) : EReal) := by
    rw [← EReal.coe_neg]; rfl
  have hpos : 0 < Real.exp (-r) := Real.exp_pos _
  have hne : (1 + Real.exp (-r) : ℝ) ≠ 0 := by positivity
  have hden : (1 : EReal) + ((Real.exp (-r) : ℝ) : EReal) = ((1 + Real.exp (-r) : ℝ) : EReal) := by
    rw [EReal.coe_add, EReal.coe_one]
  rw [one_eq, half_eq, he, hden, Ideal.div_coe hne, one_mul]
  unfold pred
  simp only [Ideal.cmp, EReal.coe_lt_coe_iff, EReal.coe_pos, logistic_gt_half_iff]
  by_cases h : 0 < r
  · simp [h]
  · simp [h]

end Cert.FrameScore

end
-- ==== Proof.RefValue.lean ====
/-
  The reference program's sequence sums, read as the value both programs compute.

  The reference thresholds a logistic score at one half, counts true positives over every frame and feature of a
  sequence, false positives and false negatives over the features of one frame, forms the frame's ratio, weights it by
  the frame's validity and adds over the frames. Read at the extended reals, with real scores, the thresholded score
  is "1 where the score is positive" (the logistic law), every sum is the textbook sum started from zero, and the
  result at sequence n is the weighted sum of the frame ratios of n.

  The sum over two axes is read by hand: the indices that lose their frame and feature coordinates to n are exactly
  the (n, t, d), one for each pair (t, d), so the sum over them is the double sum over t and d.
-/
import proofs.«135681_j77257871721096_2_alg».proof.Proof.Gen.ReferenceIdeal.Read
import proofs.«135681_j77257871721096_2_alg».proof.Proof.Spec
import proofs.«135681_j77257871721096_2_alg».proof.Proof.SigmoidLaw
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.FrameScore
open Idealize.ShloMosaic Idealize.ShloMosaic.ValueIdx

/-! ## A sum over the frame and feature axes -/

/-- Removing the frame and feature coordinates of (n, t, d) leaves n. -/
theorem drop_ix3 (n : Fin 128) (t : Fin 2048) (d : Fin 88) :
    reducesTo_S128x2048x88_S128_d1_2.drop (ix3 n t d) = ix1 n := by
  funext b
  match b with
  | ⟨0, _⟩ => rfl

/-- An index that loses its frame and feature coordinates to j is (j, its frame, its feature). -/
theorem eq_ix3_of_drop (i : S128x2048x88.Idx) (j : S128.Idx)
    (h : reducesTo_S128x2048x88_S128_d1_2.drop i = j) : i = ix3 (j 0) (i 1) (i 2) := by
  subst h
  funext a
  match a with
  | ⟨0, _⟩ => rfl
  | ⟨1, _⟩ => rfl
  | ⟨2, _⟩ => rfl

/-- The pairs (frame, feature), as indices of sequence n. -/
def pairEmb (n : Fin 128) : Fin 2048 × Fin 88 ↪ S128x2048x88.Idx :=
  ⟨fun p => ix3 n p.1 p.2, fun p q h => Prod.ext (congrFun h 1) (congrFun h 2)⟩

/-- The indices summed into j are the (j, t, d), one for each pair (t, d). -/
theorem filter_drop (j : S128.Idx) :
    Finset.univ.filter (fun i : S128x2048x88.Idx => reducesTo_S128x2048x88_S128_d1_2.drop i = j)
      = Finset.univ.map (pairEmb (j 0)) := by
  ext i
  simp only [Finset.mem_filter, Finset.mem_univ, true_and, Finset.mem_map, pairEmb, Function.Embedding.coeFn_mk]
  constructor
  · intro h
    exact ⟨(i 1, i 2), (eq_ix3_of_drop i j h).symm⟩
  · rintro ⟨p, rfl⟩
    exact (drop_ix3 (j 0) p.1 p.2).trans (eq_ix1 j).symm

/-- A sum over the frame and feature axes is the initial value plus the double sum over frames and features. -/
theorem hostReduceAdd_frames_features (f : S128x2048x88.Idx → EReal) (init : EReal) (j : S128.Idx) :
    Ideal.hostReduceAdd reducesTo_S128x2048x88_S128_d1_2 f init j
      = init + ∑ t : Fin 2048, ∑ d : Fin 88, f (ix3 (j 0) t d) := by
  unfold Ideal.hostReduceAdd
  rw [filter_drop, Finset.sum_map, Fintype.sum_prod_type]
  exact congrArg (init + ·) (Finset.sum_congr rfl fun t _ => Finset.sum_congr rfl fun d _ => rfl)

/-! ## The reference's arrays at an index -/

section Elements

variable (x y : (⟨S128x2048x88, .f32⟩ : BufTy).Contents (Elt Ideal))

/-- The thresholded logistic score of a real score is one where the score is positive, zero elsewhere. -/
theorem v8_eq (hx : ∀ i, ∃ r : ℝ, x i = ((r : ℝ) : EReal)) (i : S128x2048x88.Idx) :
    val_main_v8 (F := Ideal) x i = pred (x i) := by
  obtain ⟨r, hr⟩ := hx i
  rw [val_main_v8_apply, val_main_v7_apply, val_main_v5_apply, val_main_v6_apply, val_main_v4_apply,
    val_main_v3_apply, val_main_v2_apply, val_main_v1_apply, val_main_v0_apply, val_main_cst_apply,
    val_main_cst_0_apply, val_main_cst_1_apply, hr]
  exact sigmoid_gt_half r

/-- A true positive's term: prediction times target. -/
theorem v9_eq (hx : ∀ i, ∃ r : ℝ, x i = ((r : ℝ) : EReal)) (i : S128x2048x88.Idx) :
    val_main_v9 (F := Ideal) x y i = pred (x i) * y i := by
  rw [val_main_v9_apply, v8_eq x hx]
  rfl

/-- A false positive's term: prediction times (one minus target). -/
theorem v13_eq (hx : ∀ i, ∃ r : ℝ, x i = ((r : ℝ) : EReal)) (i : S128x2048x88.Idx) :
    val_main_v13 (F := Ideal) x y i = pred (x i) * (one - y i) := by
  rw [val_main_v13_apply, v8_eq x hx, val_main_v12_apply, val_main_v11_apply, val_main_cst_3_apply]
  rfl

/-- A false negative's term: (one minus prediction) times target. -/
theorem v17_eq (hx : ∀ i, ∃ r : ℝ, x i = ((r : ℝ) : EReal)) (i : S128x2048x88.Idx) :
    val_main_v17 (F := Ideal) x y i = (one - pred (x i)) * y i := by
  rw [val_main_v17_apply, val_main_v16_apply, v8_eq x hx, val_main_v15_apply, val_main_cst_5_apply]
  rfl

/-- The true positives of sequence n. -/
theorem v10_eq (hx : ∀ i, ∃ r : ℝ, x i = ((r : ℝ) : EReal)) (n : Fin 128) :
    val_main_v10 (F := Ideal) x y (ix1 n) = tp x y n := by
  unfold val_main_v10
  simp only [Host.reduceAdd, Ideal.hostReduceAdd_def]
  rw [hostReduceAdd_frames_features, val_main_cst_2_apply]
  show Ideal.ofBits .f32 0x00000000#32 + _ = _
  rw [zero_eq, zero_add]
  unfold tp
  exact Finset.sum_congr rfl fun t _ => Finset.sum_congr rfl fun d _ => v9_eq x y hx (ix3 n t d)

/-- The false positives of frame t of sequence n. -/
theorem v14_eq (hx : ∀ i, ∃ r : ℝ, x i = ((r : ℝ) : EReal)) (n : Fin 128) (t : Fin 2048) :
    val_main_v14 (F := Ideal) x y (ix2 n t) = fpos x y n t := by
  rw [val_main_v14_apply, val_main_cst_4_apply]
  show Ideal.ofBits .f32 0x00000000#32 + _ = _
  rw [zero_eq, zero_add]
  unfold fpos
  refine Finset.sum_congr rfl fun d _ => ?_
  have e : idx_main_v14 (ix2 n t) d = ix3 n t d :=
    funext fun a => Fin.ext (by match a with | ⟨0, _⟩ => rfl | ⟨1, _⟩ => rfl | ⟨2, _⟩ => rfl)
  rw [e]
  exact v13_eq x y hx (ix3 n t d)

/-- The false negatives of frame t of sequence n. -/
theorem v18_eq (hx : ∀ i, ∃ r : ℝ, x i = ((r : ℝ) : EReal)) (n : Fin 128) (t : Fin 2048) :
    val_main_v18 (F := Ideal) x y (ix2 n t) = fneg x y n t := by
  rw [val_main_v18_apply, val_main_cst_6_apply]
  show Ideal.ofBits .f32 0x00000000#32 + _ = _
  rw [zero_eq, zero_add]
  unfold fneg
  refine Finset.sum_congr rfl fun d _ => ?_
  have e : idx_main_v18 (ix2 n t) d = ix3 n t d :=
    funext fun a => Fin.ext (by match a with | ⟨0, _⟩ => rfl | ⟨1, _⟩ => rfl | ⟨2, _⟩ => rfl)
  rw [e]
  exact v17_eq x y hx (ix3 n t d)

/-- The frame's ratio: true positives of the sequence over true positives plus the frame's errors. -/
theorem v33_eq (hx : ∀ i, ∃ r : ℝ, x i = ((r : ℝ) : EReal)) (n : Fin 128) (t : Fin 2048) :
    val_main_v33 (F := Ideal) x y (ix2 n t) = ratio x y n t := by
  have e32 : idx_main_v27 (idx_main_v32 (ix2 n t)) = ix1 n :=
    funext fun a => Fin.ext (by match a with | ⟨0, _⟩ => rfl)
  have e29 : idx_main_v28 (idx_main_v29 (ix2 n t)) = ix1 n :=
    funext fun a => Fin.ext (by match a with | ⟨0, _⟩ => rfl)
  rw [val_main_v33_apply, val_main_v32_apply, val_main_v27_apply, val_main_v31_apply, val_main_v30_apply,
    val_main_v29_apply, val_main_v28_apply, e32, e29, v10_eq x y hx, v14_eq x y hx, v18_eq x y hx]
  rfl

end Elements

/-! ## The sequence sums -/

/-- The reference's sequence sums are the weighted sums of the frame ratios. -/
theorem ref_rowSums (x y : (⟨Cert.ReferenceIdeal.S128x2048x88, .f32⟩ : BufTy).Contents (Elt Ideal))
    (mk : (⟨Cert.ReferenceIdeal.S128x2048, .i32⟩ : BufTy).Contents (Elt Ideal))
    (hx : ∀ i, ∃ r : ℝ, x i = ((r : ℝ) : EReal)) :
    Cert.ReferenceIdeal.Read.val_main_v35 (F := Ideal) x y mk
      = Cert.FrameScore.rowSums x y (Cert.ReferenceIdeal.Read.val_main_v26 (F := Ideal) mk) := by
  funext i
  obtain ⟨n, rfl⟩ : ∃ n : Fin 128, i = ix1 n := ⟨i 0, eq_ix1 i⟩
  rw [val_main_v35_apply, val_main_cst_7_apply]
  show Ideal.ofBits .f32 0x00000000#32 + _ = rowSum x y (val_main_v26 (F := Ideal) mk) n
  rw [zero_eq, zero_add]
  unfold rowSum
  refine Finset.sum_congr rfl fun t _ => ?_
  have e : idx_main_v35 (ix1 n) t = ix2 n t :=
    funext fun a => Fin.ext (by match a with | ⟨0, _⟩ => rfl | ⟨1, _⟩ => rfl)
  rw [e, val_main_v34_apply, v33_eq x y hx]
  rfl

end Cert.ReferenceIdeal.RefValue

end
-- ==== Proof.LibFiniteCheck.lean ====
/-
  One finiteness check of a printed precondition, read back (general: any shape, any reduced axes).

  A precondition "every float input is finite" prints, per argument x, as a reduction by "and" over all axes of the
  one-bit array (|x| < +inf), started from the constant 1, and the claim states that the result is 1. Then the
  comparison is 1 at every index; an extended real whose absolute value max(x, -x) is below plus infinity is neither
  infinity; so every entry of x is a real number.
-/
import Idealize.ShloMosaic.Lib.ReduceAll
import Idealize.ShloMosaic.Lib.ValueIdx
import Idealize.ShloMosaic.Lib.Pipeline.Value
import Idealize.ShloMosaic.PureOps.Ideal

noncomputable section

namespace Cert.Lib.FiniteCheck

open Idealize.ShloMosaic Idealize.ShloMosaic.ValueIdx

/-- `Cert.Lib.FiniteCheck.scalarIdx_subsingleton`: the result of a reduction over all axes has one index. -/
instance scalarIdx_subsingleton : Subsingleton (⟨0, ![]⟩ : Shape).Idx := ⟨fun a b => funext fun d => d.elim0⟩

/-- `Cert.Lib.FiniteCheck.ofBits_inf`: the f32 pattern of plus infinity denotes plus infinity. -/
theorem ofBits_inf : Ideal.ofBits .f32 0x7F800000#32 = (⊤ : EReal) := by
  simp [Ideal.ofBits, Ideal.ieee]

/-- `Cert.Lib.FiniteCheck.real_of_abs_lt_top`: an extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- `Cert.Lib.FiniteCheck.all_real`: one check of the precondition. If "all entries have absolute value below plus
    infinity" came out 1, every entry is a real number. The shape relations are whatever the program states. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x)
        (broadcastInDim s (![] : Fin 0 → Fin s.rank) hb (constant (F := Ideal) ⟨0, ![]⟩ .f32 0x7F800000#32)))
        (constantI ⟨0, ![]⟩ 1 1#1) hr hu ix0 = 1#1) (i : s.Idx) : ∃ r : ℝ, x i = (r : EReal) := by
  have h1 := Host.reduce_andi_all _ _ hr hu ix0 e i
  rw [cmpf_apply, broadcastInDim_apply _ hb _ i ix0 (fun ax => ax.elim0)] at h1
  apply real_of_abs_lt_top
  have h2 : Ideal.cmp .olt (max (x i) (-(x i))) (Ideal.ofBits .f32 0x7F800000#32) = 1#1 := h1
  rw [ofBits_inf] at h2
  unfold Ideal.cmp at h2
  by_contra hn
  simp [hn] at h2

end Cert.Lib.FiniteCheck

end
-- ==== Proof.FiniteInputs.lean ====
/-
  The precondition "every float input is finite", read back for the score array.

  The printed precondition is the conjunction of two checks, one per float argument; each check reduces the
  one-bit array (|x| < +inf) by "and" over every axis, starting from 1. If the conjunction is 1, the first
  check is 1, and then every score is neither infinity: it is a real number.
-/
import proofs.«135681_j77257871721096_2_alg».proof.Pre_finite_inputs
import proofs.«135681_j77257871721096_2_alg».proof.Proof.Gen.Pre_finite_inputs
import proofs.«135681_j77257871721096_2_alg».proof.Proof.LibFiniteCheck
import Idealize.ShloMosaic.Lib.Affine

noncomputable section

namespace Cert.FrameScore

open Idealize.ShloMosaic Idealize.ShloMosaic.ValueIdx

/-- Under the finiteness precondition every score is a real number. -/
theorem scores_real [Cert.Pre_finite_inputs.Facts]
    (x y : FVec Ideal Cert.Pre_finite_inputs.S128x2048x88 .f32) (mk : IVec Cert.Pre_finite_inputs.S128x2048 32)
    (h : Cert.Pre_finite_inputs.fn (F := Ideal) x y mk = fun _ => 1#1) :
    ∀ i, ∃ r : ℝ, x i = ((r : ℝ) : EReal) := by
  have h0 := congrFun h ix0
  dsimp only [Cert.Pre_finite_inputs.fn] at h0
  have h1 := (IntOp.andi_eq_one.1 h0).1
  exact Cert.Lib.FiniteCheck.all_real x _ _ _ h1

end Cert.FrameScore

end
-- ==== Proof.lean ====
/-
  The kernel and its reference compute the same number.

  For scores x[n, t, d], 0/1 targets y[n, t, d] and a mask, both programs compute
    sum over n of ( sum over t of tp(n) / ((tp(n) + fpos(n, t)) + fneg(n, t)) * w(n, t) ) / count(n),
  tp, fpos and fneg the true positives of sequence n and the false positives and negatives of frame t under the
  prediction "score above threshold", count(n) the mask's sum over frames and w(n, t) = 1 for t below count(n).

  The reference thresholds the logistic score at one half and sums over whole axes. The kernel thresholds the score at
  zero and sums in two passes over a 2 x 8 grid of blocks of 64 sequences by 256 frames: the first pass accumulates
  the true positives block by block, the second the weighted frame scores, each into a column reset at the first
  block of a run of eight. At the extended reals a logistic score of a real number is above one half exactly when the
  number is positive, which is where the precondition (finite scores) is used, and a sum over 2048 frames is the sum
  over eight runs of 256, which needs no finiteness: addition on the extended reals is commutative and associative
  with zero neutral. The integer bookkeeping (frame counts, validity weights) and the closing division and sum are
  the same host operations in both programs and are carried as they stand.

  The idealization rewrote no operation, so the preservation claim is trivial; the word-level kernel and the
  idealized kernel terminate with their arguments unchanged by the generated frame runs, the reference by its
  generated run.
-/
import proofs.«135681_j77257871721096_2_alg».proof.Defs
import proofs.«135681_j77257871721096_2_alg».proof.Proof.Gen.Kernel
import proofs.«135681_j77257871721096_2_alg».proof.Proof.Gen.Kernel.Skeleton
import proofs.«135681_j77257871721096_2_alg».proof.Proof.Gen.Kernel.Launch
import proofs.«135681_j77257871721096_2_alg».proof.Proof.Gen.Kernel.Points
import proofs.«135681_j77257871721096_2_alg».proof.Proof.Gen.Kernel.Frame
import proofs.«135681_j77257871721096_2_alg».proof.Proof.Gen.KernelIdeal
import proofs.«135681_j77257871721096_2_alg».proof.Proof.Gen.KernelIdeal.Skeleton
import proofs.«135681_j77257871721096_2_alg».proof.Proof.Gen.KernelIdeal.Launch
import proofs.«135681_j77257871721096_2_alg».proof.Proof.Gen.KernelIdeal.Points
import proofs.«135681_j77257871721096_2_alg».proof.Proof.Gen.KernelIdeal.Frame
import proofs.«135681_j77257871721096_2_alg».proof.Proof.Gen.ReferenceIdeal
import proofs.«135681_j77257871721096_2_alg».proof.Proof.Gen.Pre_finite_inputs
import proofs.«135681_j77257871721096_2_alg».proof.Proof.Gen.ReferenceIdeal.Run
import proofs.«135681_j77257871721096_2_alg».proof.Proof.Gen.ReferenceIdeal.Read
import proofs.«135681_j77257871721096_2_alg».proof.Proof.KernelValue
import proofs.«135681_j77257871721096_2_alg».proof.Proof.RefValue
import proofs.«135681_j77257871721096_2_alg».proof.Proof.FiniteInputs
import Idealize.ShloMosaic.Adequacy
import Idealize.ShloMosaic.Init

set_option maxRecDepth 16384

noncomputable section

namespace Cert.Proof

open Idealize.ShloMosaic Idealize.SL.Sem

/-- The word-level kernel terminates with its arguments unchanged. -/
theorem frame_kernel : Cert.frame_Kernel := fun m ρ _ => Cert.Kernel.Gen.frame m ρ

/-- The idealized kernel terminates with its arguments unchanged. -/
theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same result: the kernel's is the closing chain of the specification's row sums, and
    so is the reference's once its logistic threshold is read on real scores. -/
theorem algebraic : Cert.algebraic_KernelIdeal_ReferenceIdeal := by
  intro m ρ m' ρ' hpre hagree
  refine ⟨fun c => Cert.KernelIdeal.KValue.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2]
  unfold Cert.ReferenceIdeal.Read.val_main_v38 Cert.ReferenceIdeal.Read.val_main_v37
  rw [Cert.ReferenceIdeal.RefValue.ref_rowSums _ _ _ (Cert.FrameScore.scores_real _ _ _ (hpre c))]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
